-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x1024x512 : Shape := ⟨3, ![8, 1024, 512]⟩
abbrev S8x1024 : Shape := ⟨2, ![8, 1024]⟩
abbrev S8x1024x1024 : Shape := ⟨3, ![8, 1024, 1024]⟩
abbrev S8x512x1024 : Shape := ⟨3, ![8, 512, 1024]⟩
abbrev S8x512 : Shape := ⟨2, ![8, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x1024x512 : S_.BroadcastsInDim S8x1024x512 (![] : Fin 0 → Fin S8x1024x512.rank)
  reducesTo_S8x1024x512_S_d0_1_2 : S8x1024x512.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x512x1024 : S_.BroadcastsInDim S8x512x1024 (![] : Fin 0 → Fin S8x512x1024.rank)
  reducesTo_S8x512x1024_S_d0_1_2 : S8x512x1024.ReducesTo [0, 1, 2] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg4 : FVec F S8x1024 .f32) (main_arg5 : FVec F S8x512x1024 .f32) (main_arg6 : FVec F S8x512 .f32) (main_v13 : IVec S_ 1) (main_v16 : IVec S8x1024x1024 1) : IVec S_ 1 :=
  let main_c_5 : IVec S_ 1 := constantI S_ 1 1#1
  let main_v17 : IVec S_ 1 := (fun x v => Host.reduce IntOp.andi x v reducesTo_S8x1024x1024_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  let main_v24 : FVec F S8x512x1024 .f32 := Host.absf main_arg5
  let main_cst_8 : FVec F S_ .f32 := constant S_ .f32 0x7F800000#32
  let main_v25 : FVec F S8x512x1024 .f32 := broadcastInDim S8x512x1024 ![] bcast_S_S8x512x1024 main_cst_8
  let main_v26 : IVec S8x512x1024 1 := cmpf .olt main_v24 main_v25
  let main_c_9 : IVec S_ 1 := constantI S_ 1 1#1
  let main_v27 : IVec S_ 1 := (fun x v => Host.reduce IntOp.andi x v reducesTo_S8x512x1024_S_d0_1_2 h_S_) main_v26 main_c_9
  let main_v28 : IVec S_ 1 := andi main_v23 main_v27
  let main_v29 : FVec F S8x512 .f32 := Host.absf main_arg6
  let main_cst_10 : FVec F S_ .f32 := constant S_ .f32 0x7F800000#32
  let main_v30 : FVec F S8x512 .f32 := broadcastInDim S8x512 ![] bcast_S_S8x512 main_cst_10
  let main_v31 : IVec S8x512 1 := cmpf .olt main_v29 main_v30
  let main_c_11 : IVec S_ 1 := constantI S_ 1 1#1
  let main_v32 : IVec S_ 1 := (fun x v => Host.reduce IntOp.andi x v reducesTo_S8x512_S_d0_1 h_S_) main_v31 main_c_11
  let main_v33 : IVec S_ 1 := andi main_v28 main_v32
  main_v33

def fn {F : FTy → Type} [FloatOps F] (main_arg0 : FVec F S8x4096x512 .f32) (main_arg1 : FVec F S8x1024x512 .f32) (main_arg2 : FVec F S8x1024 .f32) (main_arg3 : FVec F S8x1024x1024 .f32) (main_arg4 : FVec F S8x1024 .f32) (main_arg5 : FVec F S8x512x1024 .f32) (main_arg6 : FVec F S8x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x1024x512 .f32 := Host.absf main_arg1
  let main_cst_0 : FVec F S_ .f32 := constant S_ .f32 0x7F800000#32
  let main_v5 : FVec F S8x1024x512 .f32 := broadcastInDim S8x1024x512 ![] bcast_S_S8x1024x512 main_cst_0
  let main_v6 : IVec S8x1024x512 1 := cmpf .olt main_v4 main_v5
  let main_c_1 : IVec S_ 1 := constantI S_ 1 1#1
  let main_v7 : IVec S_ 1 := (fun x v => Host.reduce IntOp.andi x v reducesTo_S8x1024x512_S_d0_1_2 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S8x1024x1024 .f32 := Host.absf main_arg3
  let main_cst_4 : FVec F S_ .f32 := constant S_ .f32 0x7F800000#32
  let main_v15 : FVec F S8x1024x1024 .f32 := broadcastInDim S8x1024x1024 ![] bcast_S_S8x1024x1024 main_cst_4
  let main_v16 : IVec S8x1024x1024 1 := cmpf .olt main_v14 main_v15
  fn_part1 (F := F) main_arg4 main_arg5 main_arg6 main_v13 main_v16
-- ==== Kernel.lean ====
abbrev S8x4096x512 : Shape := ⟨3, ![8, 4096, 512]⟩
abbrev S8x1024x512 : Shape := ⟨3, ![8, 1024, 512]⟩
abbrev S8x1024 : Shape := ⟨2, ![8, 1024]⟩
abbrev S8x1024x1024 : Shape := ⟨3, ![8, 1024, 1024]⟩
abbrev S8x512x1024 : Shape := ⟨3, ![8, 512, 1024]⟩
abbrev S8x512 : Shape := ⟨2, ![8, 512]⟩
abbrev S8x1x1024 : Shape := ⟨3, ![8, 1, 1024]⟩
abbrev S8x1x512 : Shape := ⟨3, ![8, 1, 512]⟩
abbrev S1x4096x512 : Shape := ⟨3, ![1, 4096, 512]⟩
abbrev S1x1024x512 : Shape := ⟨3, ![1, 1024, 512]⟩
abbrev S1x1x1024 : Shape := ⟨3, ![1, 1, 1024]⟩
abbrev S1x1024x1024 : Shape := ⟨3, ![1, 1024, 1024]⟩
abbrev S1x512x1024 : Shape := ⟨3, ![1, 512, 1024]⟩
abbrev S1x1x512 : Shape := ⟨3, ![1, 1, 512]⟩
abbrev S1024x512 : Shape := ⟨2, ![1024, 512]⟩
abbrev S512x1024 : Shape := ⟨2, ![512, 1024]⟩
abbrev S1024x1024 : Shape := ⟨2, ![1024, 1024]⟩
abbrev S1x1024 : Shape := ⟨2, ![1, 1024]⟩
abbrev S1x512 : Shape := ⟨2, ![1, 512]⟩

abbrev nBuf : Space → Nat
  | .hbm => 11
  | .vmem => 16
  | .smem => 0
  | _ => 0

abbrev bufTy : (tb : Table) → Fin (tcTables nBuf tb) → BufTy
  | .hbm, ⟨0, _⟩ => ⟨S8x4096x512, .f32⟩
  | .hbm, ⟨1, _⟩ => ⟨S8x1024x512, .f32⟩
  | .hbm, ⟨2, _⟩ => ⟨S8x1024, .f32⟩
  | .hbm, ⟨3, _⟩ => ⟨S8x1024x1024, .f32⟩
  | .hbm, ⟨4, _⟩ => ⟨S8x1024, .f32⟩
  | .hbm, ⟨5, _⟩ => ⟨S8x512x1024, .f32⟩
  | .hbm, ⟨6, _⟩ => ⟨S8x512, .f32⟩
  | .hbm, ⟨7, _⟩ => ⟨S8x1x1024, .f32⟩
  | .hbm, ⟨8, _⟩ => ⟨S8x1x1024, .f32⟩
  | .hbm, ⟨9, _⟩ => ⟨S8x1x512, .f32⟩
  | .hbm, ⟨10, _⟩ => ⟨S8x4096x512, .f32⟩
  | .local _ .vmem, ⟨0, _⟩ => ⟨S1x4096x512, .f32⟩
  | .local _ .vmem, ⟨1, _⟩ => ⟨S1x4096x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x1x512, .f32⟩
  | .local _ .vmem, ⟨13, _⟩ => ⟨S1x1x512, .f32⟩
  | .local _ .vmem, ⟨14, _⟩ => ⟨S1x4096x512, .f32⟩
  | .local _ .vmem, ⟨15, _⟩ => ⟨S1x4096x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S8x1024_S8x1x1024_0_2 : S8x1024.BroadcastsInDim S8x1x1024 (![0, 2] : Fin 2 → Fin S8x1x1024.rank)
  bcast_S8x512_S8x1x512_0_2 : S8x512.BroadcastsInDim S8x1x512 (![0, 2] : Fin 2 → Fin S8x1x512.rank)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  transposes_S1024x512_p1_0_S512x1024 : S1024x512.Transposes [1, 0] S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  inb_S1x4096x512_S1x1024x512_0_0_0 : ∀ a, (![0, 0, 0] : Fin 3 → Nat) a + S1x1024x512.size a ≤ S1x4096x512.size a
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  shapeCasts_S1024x512_S1x1024x512 : S1024x512.ShapeCasts S1x1024x512
  inb_S1x4096x512_S1x1024x512_0_1024_0 : ∀ a, (![0, 1024, 0] : Fin 3 → Nat) a + S1x1024x512.size a ≤ S1x4096x512.size a
  inb_S1x4096x512_S1x1024x512_0_2048_0 : ∀ a, (![0, 2048, 0] : Fin 3 → Nat) a + S1x1024x512.size a ≤ S1x4096x512.size a
  inb_S1x4096x512_S1x1024x512_0_3072_0 : ∀ a, (![0, 3072, 0] : Fin 3 → Nat) a + S1x1024x512.size a ≤ S1x4096x512.size a
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S8x4096x512.size a
  hwx0_0 : ∀ i : grid0.Coords, EltTy.bits .f32 = 32 ∨ (Rect.block (s := S8x4096x512) S1x4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x512.size a
  hwx0_1 : ∀ i : grid0.Coords, EltTy.bits .f32 = 32 ∨ (Rect.block (s := S8x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .f32 = 32 ∨ (Rect.block (s := S8x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x512x1024.size a
  hwx0_5 : ∀ i : grid0.Coords, EltTy.bits .f32 = 32 ∨ (Rect.block (s := S8x512x1024) S1x512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S8x1x512.size a
  hwx0_6 : ∀ i : grid0.Coords, EltTy.bits .f32 = 32 ∨ (Rect.block (s := S8x1x512) S1x1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096x512.size a ≤ S8x4096x512.size a
  hwx0_7 : ∀ i : grid0.Coords, EltTy.bits .f32 = 32 ∨ (Rect.block (s := S8x4096x512) S1x4096x512.size (cc0_transform_7 i) (hinb0_7 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x4096x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x1024x512 : Shape := ⟨3, ![8, 1024, 512]⟩
abbrev S8x1024 : Shape := ⟨2, ![8, 1024]⟩
abbrev S8x1024x1024 : Shape := ⟨3, ![8, 1024, 1024]⟩
abbrev S8x512x1024 : Shape := ⟨3, ![8, 512, 1024]⟩
abbrev S8x512 : Shape := ⟨2, ![8, 512]⟩
abbrev S8x4096x1024 : Shape := ⟨3, ![8, 4096, 1024]⟩
abbrev S8x1x1024 : Shape := ⟨3, ![8, 1, 1024]⟩
abbrev S_ : Shape := ⟨0, ![]⟩
abbrev S8x1x512 : Shape := ⟨3, ![8, 1, 512]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x1024x512, .f32⟩
  | .hbm, ⟨2, _⟩ => ⟨S8x1024, .f32⟩
  | .hbm, ⟨3, _⟩ => ⟨S8x1024x1024, .f32⟩
  | .hbm, ⟨4, _⟩ => ⟨S8x1024, .f32⟩
  | .hbm, ⟨5, _⟩ => ⟨S8x512x1024, .f32⟩
  | .hbm, ⟨6, _⟩ => ⟨S8x512, .f32⟩
  | .hbm, ⟨7, _⟩ => ⟨S8x4096x1024, .f32⟩
  | .hbm, ⟨8, _⟩ => ⟨S8x1x1024, .f32⟩
  | .hbm, ⟨9, _⟩ => ⟨S8x4096x1024, .f32⟩
  | .hbm, ⟨10, _⟩ => ⟨S8x4096x1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x1x1024, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S8x4096x512, .f32⟩
  | .hbm, ⟨22, _⟩ => ⟨S8x1x512, .f32⟩
  | .hbm, ⟨23, _⟩ => ⟨S8x4096x512, .f32⟩
  | .hbm, ⟨24, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  bcast_S_S8x4096x1024 : S_.BroadcastsInDim S8x4096x1024 (![] : Fin 0 → Fin S8x4096x1024.rank)
  bcast_S8x512_S8x1x512_0_2 : S8x512.BroadcastsInDim S8x1x512 (![0, 2] : Fin 2 → Fin S8x1x512.rank)
  bcast_S8x1x512_S8x4096x512_0_1_2 : S8x1x512.BroadcastsInDim S8x4096x512 (![0, 1, 2] : Fin 3 → Fin S8x4096x512.rank)
  dot_S8x4096x512_S8x1024x512_S8x4096x1024_2_2_1_1_0_0_wf : DotDims.WF S8x4096x512 S8x1024x512 S8x4096x1024 [2] [2] [1] [1] [0] [0]
  dot_S8x4096x1024_S8x1024x1024_S8x4096x1024_2_2_1_1_0_0_wf : DotDims.WF S8x4096x1024 S8x1024x1024 S8x4096x1024 [2] [2] [1] [1] [0] [0]
  dot_S8x4096x1024_S8x512x1024_S8x4096x512_2_2_1_1_0_0_wf : DotDims.WF S8x4096x1024 S8x512x1024 S8x4096x512 [2] [2] [1] [1] [0] [0]

variable [Facts₀]

def dot_S8x4096x512_S8x1024x512_S8x4096x1024_2_2_1_1_0_0 : DotDims S8x4096x512 S8x1024x512 S8x4096x1024 where
  lhsContracting := [2]
  rhsContracting := [2]
  lhsNonContracting := [1]
  rhsNonContracting := [1]
  lhsBatch := [0]
  rhsBatch := [0]
  wf := dot_S8x4096x512_S8x1024x512_S8x4096x1024_2_2_1_1_0_0_wf
def dot_S8x4096x1024_S8x1024x1024_S8x4096x1024_2_2_1_1_0_0 : DotDims S8x4096x1024 S8x1024x1024 S8x4096x1024 where
  lhsContracting := [2]
  rhsContracting := [2]
  lhsNonContracting := [1]
  rhsNonContracting := [1]
  lhsBatch := [0]
  rhsBatch := [0]
  wf := dot_S8x4096x1024_S8x1024x1024_S8x4096x1024_2_2_1_1_0_0_wf
def dot_S8x4096x1024_S8x512x1024_S8x4096x512_2_2_1_1_0_0 : DotDims S8x4096x1024 S8x512x1024 S8x4096x512 where
  lhsContracting := [2]
  rhsContracting := [2]
  lhsNonContracting := [1]
  rhsNonContracting := [1]
  lhsBatch := [0]
  rhsBatch := [0]
  wf := dot_S8x4096x1024_S8x512x1024_S8x4096x512_2_2_1_1_0_0_wf

class Facts : Prop extends Facts₀ where

variable [Facts]
-- ==== Proof.LibPlainMatmul.lean ====
/-
  A matrix product with plain dimension numbers, read at an entry, at the exact reading of floats as extended reals.

  `tpu.matmul` of an m×k by a k×n matrix (contracting the left operand's axis 1 with the right operand's axis 0, no
  batch axes) accumulated into the zero splat is, at entry (a, b), the sum over c of A(a, c)·B(c, b): the accumulator
  contributes `0 + ·` and nothing else, so the equation holds at the infinities too. Beside it, the one float word a
  bias row of ones needs: the f32 pattern of 1.0 reads as the number 1.
-/
import Idealize.ShloMosaic.Lib.StackMember
import Idealize.ShloMosaic.PureOps.IdealRules

noncomputable section

open scoped BigOperators

namespace Idealize.ShloMosaic.PlainMatmul

open Idealize.ShloMosaic Idealize.ShloMosaic.ValueIdx

/-- The product of an m×k by a k×n matrix accumulated into the zero splat, at entry (a, b), is the sum over the
    contracted coordinate c of A(a, c)·B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The f32 word of 1.0 denotes the number 1. -/
theorem ofBits_one_f32 : Ideal.ofBits .f32 0x3F800000#32 = 1 :=
  IdealRules.sign_bit.ideal_onePat .f32

end Idealize.ShloMosaic.PlainMatmul

end
-- ==== Proof.MlpSpec.lean ====
/-
  The function both programs compute, on the extended reals.

  A three-layer perceptron with per-batch weights. For batch b, row s and output column o,

      out[b, s, o] = Σ_g relu( Σ_h relu( Σ_d q[b,s,d]·W0[b,h,d] + b0[b,h] )·W1[b,g,h] + b1[b,g] )·W2[b,o,g] + b2[b,o],

  with relu(z) = max z 0. Every weight matrix is stored [out, in], so each layer contracts the LAST axis of the
  activations with the LAST axis of the weights. `row` is one row through the three layers as a function of that row of
  the input and of the batch's weights given entry by entry; `out` reads those entries off the seven argument arrays;
  `G` is the whole result array. No law of arithmetic is used anywhere: the two programs compute this very expression,
  sum by sum, so nothing needs the inputs to be finite.
-/
import Idealize.ShloMosaic.PureOps.Ideal
import Idealize.ShloMosaic.Lib.ValueIdx

noncomputable section

open scoped BigOperators

namespace Cert.Mlp

open Idealize.ShloMosaic Idealize.ShloMosaic.ValueIdx

/-- One row of the input through the three layers, read at output column `o`: `x d` the row, `w0 h d`, `w1 g h`,
    `w2 o g` the weights stored [out, in], `b0 h`, `b1 g`, `b2 o` the biases. -/
def row (x : Fin 512 → EReal) (w0 : Fin 1024 → Fin 512 → EReal) (b0 : Fin 1024 → EReal)
    (w1 : Fin 1024 → Fin 1024 → EReal) (b1 : Fin 1024 → EReal)
    (w2 : Fin 512 → Fin 1024 → EReal) (b2 : Fin 512 → EReal) (o : Fin 512) : EReal :=
  (∑ g : Fin 1024, max ((∑ h : Fin 1024, max ((∑ d : Fin 512, x d * w0 h d) + b0 h) 0 * w1 g h) + b1 g) 0 * w2 o g) + b2 o

/-- The result at batch `b`, row `s`, column `o`, from the seven argument arrays. -/
def out (q : FVec Ideal ⟨3, ![8, 4096, 512]⟩ .f32) (W0 : FVec Ideal ⟨3, ![8, 1024, 512]⟩ .f32)
    (B0 : FVec Ideal ⟨2, ![8, 1024]⟩ .f32) (W1 : FVec Ideal ⟨3, ![8, 1024, 1024]⟩ .f32)
    (B1 : FVec Ideal ⟨2, ![8, 1024]⟩ .f32) (W2 : FVec Ideal ⟨3, ![8, 512, 1024]⟩ .f32)
    (B2 : FVec Ideal ⟨2, ![8, 512]⟩ .f32) (b : Fin 8) (s : Fin 4096) (o : Fin 512) : EReal :=
  row (fun d => q (ix3 b s d)) (fun h d => W0 (ix3 b h d)) (fun h => B0 (ix2 b h))
    (fun g h => W1 (ix3 b g h)) (fun g => B1 (ix2 b g)) (fun o' g => W2 (ix3 b o' g)) (fun o' => B2 (ix2 b o')) o

/-- The whole result array. -/
def G (q : FVec Ideal ⟨3, ![8, 4096, 512]⟩ .f32) (W0 : FVec Ideal ⟨3, ![8, 1024, 512]⟩ .f32)
    (B0 : FVec Ideal ⟨2, ![8, 1024]⟩ .f32) (W1 : FVec Ideal ⟨3, ![8, 1024, 1024]⟩ .f32)
    (B1 : FVec Ideal ⟨2, ![8, 1024]⟩ .f32) (W2 : FVec Ideal ⟨3, ![8, 512, 1024]⟩ .f32)
    (B2 : FVec Ideal ⟨2, ![8, 512]⟩ .f32) : FVec Ideal ⟨3, ![8, 4096, 512]⟩ .f32 :=
  fun i => out q W0 B0 W1 B1 W2 B2 (i 0) (i 1) (i 2)

theorem G_ix3 (q : FVec Ideal ⟨3, ![8, 4096, 512]⟩ .f32) (W0 : FVec Ideal ⟨3, ![8, 1024, 512]⟩ .f32)
    (B0 : FVec Ideal ⟨2, ![8, 1024]⟩ .f32) (W1 : FVec Ideal ⟨3, ![8, 1024, 1024]⟩ .f32)
    (B1 : FVec Ideal ⟨2, ![8, 1024]⟩ .f32) (W2 : FVec Ideal ⟨3, ![8, 512, 1024]⟩ .f32)
    (B2 : FVec Ideal ⟨2, ![8, 512]⟩ .f32) (b : Fin 8) (s : Fin 4096) (o : Fin 512) :
    G q W0 B0 W1 B1 W2 B2 (ix3 b s o) = out q W0 B0 W1 B1 W2 B2 b s o := rfl

end Cert.Mlp

end
-- ==== Proof.ChunkValue.lean ====
/-
  What the kernel body computes for one chunk of 1024 rows, read at an entry.

  The body first casts and transposes the batch's three weight blocks once ([out, in] to [in, out]), then for each of the
  four chunks of 1024 rows of the batch's input block runs the same chain: three matrix products into a zero accumulator,
  each followed by the addition of the bias row, the first two also by the maximum with zero. Changes of float format are
  the identity at the exact reading. The four chunks are printed as four payloads whose texts differ only in where the
  program was cut into parts; they are one function (`chunk`) of the chunk's rows, the transposed weights and the biases
  (`piece0_eq` … `piece3_eq`, by unfolding). That function at row r and column o is `Cert.Mlp.row` of row r
  (`chunk_apply`): a plain product [m,k]x[k,n] at (a, b) is Σ_c A(a,c)·B(c,b), the transposed weight at (in, out) is the
  stored one at (out, in), and the bias row [1,1,n] is repeated down the 1024 rows.
-/
import proofs.«147190_g64166811402842_feedfinal_112_26_alg».proof.Proof.Gen.KernelIdeal.Skeleton
import proofs.«147190_g64166811402842_feedfinal_112_26_alg».proof.Proof.LibPlainMatmul
import proofs.«147190_g64166811402842_feedfinal_112_26_alg».proof.Proof.MlpSpec
import Idealize.ShloMosaic.Lib.ValueLayout
import Idealize.ShloMosaic.Lib.IdealHost

noncomputable section

open scoped BigOperators

namespace Cert.KernelIdeal.Chunk

open Cert.KernelIdeal Cert.KernelIdeal.Gen Idealize.ShloMosaic Idealize.ShloMosaic.ValueIdx

/-! ## The three products have plain dimension numbers -/

theorem dot1_eq : dot_S1024x512_S512x1024_S1024x1024_1_0_0_1_n_n = DotDims.plain 1024 512 1024 := rfl
theorem dot2_eq : dot_S1024x1024_S1024x1024_S1024x1024_1_0_0_1_n_n = DotDims.plain 1024 1024 1024 := rfl
theorem dot3_eq : dot_S1024x1024_S1024x512_S1024x512_1_0_0_1_n_n = DotDims.plain 1024 1024 512 := rfl

/-! ## The transposed weights -/

/-- The first layer's weight block [1, 1024, 512] transposed to [512, 1024]: entry (d, h) is the stored (0, h, d). -/
theorem w0T_apply (v0 : Vec Ideal S1x1024x512 .f32) (d : Fin 512) (h : Fin 1024) :
    k0_pay2 (F := Ideal) v0 (ix2 d h) = v0 (ix3 0 h d) := by
  unfold k0_pay2
  dsimp only
  rw [transpose_ix2_apply, truncf_apply, shapeCast_1ab_ab_apply]

/-- The second layer's weight block [1, 1024, 1024] transposed: entry (h, g) is the stored (0, g, h). -/
theorem w1T_apply (v4 : Vec Ideal S1x1024x1024 .f32) (h : Fin 1024) (g : Fin 1024) :
    k0_pay3 (F := Ideal) v4 (ix2 h g) = v4 (ix3 0 g h) := by
  unfold k0_pay3
  dsimp only
  rw [transpose_ix2_apply, truncf_apply, shapeCast_1ab_ab_apply]

/-- The third layer's weight block [1, 512, 1024] transposed to [1024, 512]: entry (g, o) is the stored (0, o, g). -/
theorem w2T_apply (v8 : Vec Ideal S1x512x1024 .f32) (g : Fin 1024) (o : Fin 512) :
    k0_pay4 (F := Ideal) v8 (ix2 g o) = v8 (ix3 0 o g) := by
  unfold k0_pay4
  dsimp only
  rw [transpose_ix2_apply, truncf_apply, shapeCast_1ab_ab_apply]

/-! ## One chunk -/

variable {F : FTy → Type} [FloatOps F]

/-- The chain one chunk of 1024 rows goes through, as a function of the transposed weights, the chunk's rows and the
    three bias rows: the second chunk's payload, which takes exactly these. -/
abbrev chunk (w0T : FVec F S512x1024 .bf16) (w1T : FVec F S1024x1024 .bf16) (w2T : FVec F S1024x512 .bf16)
    (x : Vec F S1x1024x512 .f32) (b0 b1 : Vec F S1x1x1024 .f32) (b2 : Vec F S1x1x512 .f32) : FVec F S1x1024x512 .f32 :=
  k0_pay7 w0T w1T w2T x b0 b1 b2

/-- The first chunk: its chain is printed in two payloads, the transposes inside the first. -/
theorem piece0_eq (v0 : Vec F S1x1024x512 .f32) (v4 : Vec F S1x1024x1024 .f32) (v8 : Vec F S1x512x1024 .f32)
    (v12 : Vec F S1x1024x512 .f32) (v16 v24 : Vec F S1x1x1024 .f32) (v32 : Vec F S1x1x512 .f32) :
    k0_pay6 (k0_pay5 v0 v4 v8 v12 v16 v24) v32 = chunk (k0_pay2 v0) (k0_pay3 v4) (k0_pay4 v8) v12 v16 v24 v32 := rfl

/-- The third chunk. -/
theorem piece2_eq (v3 : FVec F S512x1024 .bf16) (v7 : FVec F S1024x1024 .bf16) (v11 : FVec F S1024x512 .bf16)
    (v66 : Vec F S1x1024x512 .f32) (v70 v78 : Vec F S1x1x1024 .f32) (v86 : Vec F S1x1x512 .f32) :
    k0_pay8 v3 v7 v11 v66 v70 v78 v86 = chunk v3 v7 v11 v66 v70 v78 v86 := rfl

/-- The fourth chunk: its first product and first bias row are printed as payloads of their own. -/
theorem piece3_eq (v3 : FVec F S512x1024 .bf16) (v7 : FVec F S1024x1024 .bf16) (v11 : FVec F S1024x512 .bf16)
    (v93 : Vec F S1x1024x512 .f32) (v97 v105 : Vec F S1x1x1024 .f32) (v113 : Vec F S1x1x512 .f32) :
    k0_pay1 v7 v11 (k0_pay9 v3 v93) (k0_pay10 v97) v105 v113 = chunk v3 v7 v11 v93 v97 v105 v113 := rfl

/-- A chunk at row `r`, column `o`: that row through the three layers, the weights read off their transposes. -/
theorem chunk_apply (w0T : FVec Ideal S512x1024 .bf16) (w1T : FVec Ideal S1024x1024 .bf16) (w2T : FVec Ideal S1024x512 .bf16)
    (x : Vec Ideal S1x1024x512 .f32) (b0 b1 : Vec Ideal S1x1x1024 .f32) (b2 : Vec Ideal S1x1x512 .f32)
    (u : Fin 1) (r : Fin 1024) (o : Fin 512) :
    chunk (F := Ideal) w0T w1T w2T x b0 b1 b2 (ix3 u r o)
      = Cert.Mlp.row (fun d => x (ix3 0 r d)) (fun h d => w0T (ix2 d h)) (fun h => b0 (ix3 0 0 h))
          (fun g h => w1T (ix2 h g)) (fun g => b1 (ix3 0 0 g)) (fun o' g => w2T (ix2 g o')) (fun o' => b2 (ix3 0 0 o')) o := by
  unfold chunk k0_pay7 Cert.Mlp.row
  dsimp only
  simp only [dot1_eq, dot2_eq, dot3_eq, shapeCast_ab_1ab_apply, addf_apply, PlainMatmul.matmul_plain_zero_apply,
    maximumf_apply, truncf_apply, broadcast_apply, broadcastTo_1b_ab_apply, shapeCast_1ab_ab_apply,
    Ideal.ofBits_def, Ideal.ofBits_zero_bf16]

end Cert.KernelIdeal.Chunk

end
-- ==== Proof.KernelValue.lean ====
/-
  The kernel's result array is the perceptron `Cert.Mlp.G` of its arguments.

  The grid has one point per batch: point t stages block (t, 0, 0) of every operand — the whole of batch t's input rows,
  weights and bias rows (the biases re-laid [8, n] to [8, 1, n] by the host before the call) — and writes back the whole of
  batch t's output rows. The body fills its output block by four stores of 1024 rows each, every one the same chain of
  the rows it covers (`Cert.KernelIdeal.Chunk`), so the block is ONE function of the block's index (`blockOut`), and
  read through the block of point t that function is `G` of the argument arrays (`blockOut_eq_G`): entry (u, s, o) of
  the block is entry (t, s, o) of the array. The eight blocks tile the result array.
-/
import proofs.«147190_g64166811402842_feedfinal_112_26_alg».proof.Proof.Gen.KernelIdeal.Value
import proofs.«147190_g64166811402842_feedfinal_112_26_alg».proof.Proof.ChunkValue
import proofs.«147190_g64166811402842_feedfinal_112_26_alg».proof.Proof.MlpSpec
import Idealize.ShloMosaic.Lib.Pipeline.Value
import Idealize.ShloMosaic.Lib.ValueLayout
import Idealize.ShloMosaic.Lib.StableHlo.Run

noncomputable section

open scoped BigOperators

namespace Cert.KernelIdeal.Whole

open Cert.KernelIdeal Cert.KernelIdeal.Gen Cert.KernelIdeal.Chunk Idealize.ShloMosaic Idealize.ShloMosaic.TcCoe
open Idealize.SL.Sem Idealize.ShloMosaic.ValueIdx
open Idealize.ShloMosaic.Pipeline (Dat)

theorem hz : (![0, 0, 0] : Fin 3 → Nat) = fun _ => 0 := funext fun a => by fin_cases a <;> rfl

/-! ## The output block as one function of the seven input blocks -/

/-- What the body leaves in the output block [1, 4096, 512]: entry (·, s, o) is row s of the input block through the
    three layers with the staged weights and bias rows, at column o. -/
def blockOut (x0 : Vec Ideal S1x4096x512 .f32) (x1 : Vec Ideal S1x1024x512 .f32) (x2 : Vec Ideal S1x1x1024 .f32)
    (x3 : Vec Ideal S1x1024x1024 .f32) (x4 : Vec Ideal S1x1x1024 .f32) (x5 : Vec Ideal S1x512x1024 .f32)
    (x6 : Vec Ideal S1x1x512 .f32) : Vec Ideal S1x4096x512 .f32 := fun y =>
  Cert.Mlp.row (fun d => x0 (ix3 (0 : Fin 1) (⟨(y 1).val, (y 1).isLt⟩ : Fin 4096) d)) (fun h d => x1 (ix3 (0 : Fin 1) h d))
    (fun h => x2 (ix3 (0 : Fin 1) (0 : Fin 1) h)) (fun g h => x3 (ix3 (0 : Fin 1) g h)) (fun g => x4 (ix3 (0 : Fin 1) (0 : Fin 1) g))
    (fun o g => x5 (ix3 (0 : Fin 1) o g)) (fun o => x6 (ix3 (0 : Fin 1) (0 : Fin 1) o)) (⟨(y 2).val, (y 2).isLt⟩ : Fin 512)

/-- One store of 1024 rows at row offset `c`: the chain of those rows is `blockOut` at the rows' places in the block. -/
theorem piece_eq (c : Nat) (inb : ∀ a, (![0, c, 0] : Fin 3 → Nat) a + S1x1024x512.size a ≤ S1x4096x512.size a)
    (x0 : Vec Ideal S1x4096x512 .f32) (x1 : Vec Ideal S1x1024x512 .f32) (x2 : Vec Ideal S1x1x1024 .f32)
    (x3 : Vec Ideal S1x1024x1024 .f32) (x4 : Vec Ideal S1x1x1024 .f32) (x5 : Vec Ideal S1x512x1024 .f32)
    (x6 : Vec Ideal S1x1x512 .f32)
    (x : (Rect.unit (s := S1x4096x512) ![0, c, 0] S1x1024x512.size inb).shape.Idx) :
    chunk (F := Ideal) (k0_pay2 x1) (k0_pay3 x3) (k0_pay4 x5)
        (View.ld x0 (Rect.unit (s := S1x4096x512) ![0, c, 0] S1x1024x512.size inb)) x2 x4 x6 x
      = blockOut x0 x1 x2 x3 x4 x5 x6 ((Rect.unit (s := S1x4096x512) ![0, c, 0] S1x1024x512.size inb).emb x) := by
  obtain ⟨u, r, o, rfl⟩ : ∃ (u : Fin 1) (r : Fin 1024) (o : Fin 512), x = ix3 u r o := ⟨x 0, x 1, x 2, eq_ix3 x⟩
  rw [chunk_apply]
  unfold blockOut
  simp only [w0T_apply, w1T_apply, w2T_apply]
  have e1 : ∀ d : Fin 512, View.ld x0 (Rect.unit (s := S1x4096x512) ![0, c, 0] S1x1024x512.size inb) (ix3 (0 : Fin 1) r d)
      = x0 (ix3 (0 : Fin 1) (⟨(((Rect.unit (s := S1x4096x512) ![0, c, 0] S1x1024x512.size inb).emb (ix3 u r o)) 1).val,
          (((Rect.unit (s := S1x4096x512) ![0, c, 0] S1x1024x512.size inb).emb (ix3 u r o)) 1).isLt⟩ : Fin 4096) d) := fun d =>
    congrArg x0 (funext fun a => Fin.ext (by
      match a with
      | ⟨0, _⟩ => rfl
      | ⟨1, _⟩ => rfl
      | ⟨2, _⟩ => show 0 + 1 * d.val = d.val; omega))
  have e2 : (⟨(((Rect.unit (s := S1x4096x512) ![0, c, 0] S1x1024x512.size inb).emb (ix3 u r o)) 2).val,
      (((Rect.unit (s := S1x4096x512) ![0, c, 0] S1x1024x512.size inb).emb (ix3 u r o)) 2).isLt⟩ : Fin 512) = o :=
    Fin.ext (by show 0 + 1 * o.val = o.val; omega)
  simp only [e1, e2]

/-- The body's four stores leave `blockOut` of the input blocks in the output block. -/
theorem out_eq (x0 : Vec Ideal S1x4096x512 .f32) (x1 : Vec Ideal S1x1024x512 .f32) (x2 : Vec Ideal S1x1x1024 .f32)
    (x3 : Vec Ideal S1x1024x1024 .f32) (x4 : Vec Ideal S1x1x1024 .f32) (x5 : Vec Ideal S1x512x1024 .f32)
    (x6 : Vec Ideal S1x1x512 .f32) (y : S1x4096x512.Idx) :
    out0_7 (F := Ideal) x0 x1 x2 x3 x4 x5 x6 y = blockOut x0 x1 x2 x3 x4 x5 x6 y := by
  unfold out0_7
  simp only [View.ld_unit_zero (S := S1x1024x512) hz, View.ld_unit_zero (S := S1x1024x1024) hz,
    View.ld_unit_zero (S := S1x512x1024) hz, View.ld_unit_zero (S := S1x1x1024) hz, View.ld_unit_zero (S := S1x1x512) hz,
    piece0_eq, piece2_eq, piece3_eq]
  refine View.canon_apply_of_pieces (blockOut x0 x1 x2 x3 x4 x5 x6) _ ?_ y (cover0_7 _ _ _ _ y)
  intro p hp x
  simp only [List.mem_cons, List.not_mem_nil, or_false] at hp
  rcases hp with rfl | rfl | rfl | rfl
  · exact piece_eq 3072 _ x0 x1 x2 x3 x4 x5 x6 x
  · exact piece_eq 2048 _ x0 x1 x2 x3 x4 x5 x6 x
  · exact piece_eq 1024 _ x0 x1 x2 x3 x4 x5 x6 x
  · exact piece_eq 0 _ x0 x1 x2 x3 x4 x5 x6 x

/-- When the seven input blocks are batch `tb`'s parts of the argument arrays, `blockOut` at (·, s, o) is the
    perceptron's entry (tb, s, o). -/
theorem blockOut_of_reads (X0 : Vec Ideal S1x4096x512 .f32) (X1 : Vec Ideal S1x1024x512 .f32) (X2 : Vec Ideal S1x1x1024 .f32)
    (X3 : Vec Ideal S1x1024x1024 .f32) (X4 : Vec Ideal S1x1x1024 .f32) (X5 : Vec Ideal S1x512x1024 .f32)
    (X6 : Vec Ideal S1x1x512 .f32)
    (q : FVec Ideal S8x4096x512 .f32) (W0 : FVec Ideal S8x1024x512 .f32) (B0 : FVec Ideal S8x1024 .f32)
    (W1 : FVec Ideal S8x1024x1024 .f32) (B1 : FVec Ideal S8x1024 .f32) (W2 : FVec Ideal S8x512x1024 .f32)
    (B2 : FVec Ideal S8x512 .f32) (tb : Fin 8)
    (r0 : ∀ (s : Fin 4096) (d : Fin 512), X0 (ix3 (0 : Fin 1) s d) = q (ix3 tb s d))
    (r1 : ∀ (h : Fin 1024) (d : Fin 512), X1 (ix3 (0 : Fin 1) h d) = W0 (ix3 tb h d))
    (r2 : ∀ h : Fin 1024, X2 (ix3 (0 : Fin 1) (0 : Fin 1) h) = B0 (ix2 tb h))
    (r3 : ∀ (g : Fin 1024) (h : Fin 1024), X3 (ix3 (0 : Fin 1) g h) = W1 (ix3 tb g h))
    (r4 : ∀ g : Fin 1024, X4 (ix3 (0 : Fin 1) (0 : Fin 1) g) = B1 (ix2 tb g))
    (r5 : ∀ (o : Fin 512) (g : Fin 1024), X5 (ix3 (0 : Fin 1) o g) = W2 (ix3 tb o g))
    (r6 : ∀ o : Fin 512, X6 (ix3 (0 : Fin 1) (0 : Fin 1) o) = B2 (ix2 tb o))
    (y : S1x4096x512.Idx) :
    blockOut X0 X1 X2 X3 X4 X5 X6 y
      = Cert.Mlp.out q W0 B0 W1 B1 W2 B2 tb (⟨(y 1).val, (y 1).isLt⟩ : Fin 4096) (⟨(y 2).val, (y 2).isLt⟩ : Fin 512) := by
  unfold blockOut Cert.Mlp.out
  simp only [r0, r1, r2, r3, r4, r5, r6]

/-! ## The blocks of point t, read off the argument arrays -/

variable (m : (ℓ : Loc nD τ sig) → Buf (Elt Ideal) ℓ) (ρ : Dev nD → PrngReg)

/-- Every window's block index at point `t` is (t, 0, 0), and there are eight points (decided over the grid). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ t.val < 8 :=
  (by decide +kernel : ∀ t : Fin grid0.N, _)

/-- The three bias arrays the region finds: the host re-laid each [8, n] argument as [8, 1, n]. -/
theorem V_bias0 (c : Dev nD) : (V m c main_v0 : S8x1x1024.Idx → EReal)
    = broadcastInDim S8x1x1024 ![0, 2] Gen.bcast_S8x1024_S8x1x1024_0_2 (m ((c : Thread nD τ).loc main_arg2) : S8x1024.Idx → EReal) := by
  dsimp only [Gen.V, Gen.hostOps0]; after_results
theorem V_bias1 (c : Dev nD) : (V m c main_v1 : S8x1x1024.Idx → EReal)
    = broadcastInDim S8x1x1024 ![0, 2] Gen.bcast_S8x1024_S8x1x1024_0_2 (m ((c : Thread nD τ).loc main_arg4) : S8x1024.Idx → EReal) := by
  dsimp only [Gen.V, Gen.hostOps0]; after_results
theorem V_bias2 (c : Dev nD) : (V m c main_v2 : S8x1x512.Idx → EReal)
    = broadcastInDim S8x1x512 ![0, 2] Gen.bcast_S8x512_S8x1x512_0_2 (m ((c : Thread nD τ).loc main_arg6) : S8x512.Idx → EReal) := by
  dsimp only [Gen.V, Gen.hostOps0]; after_results

/-- Block t of the input rows: entry (u, s, d) is the array's (t, s, d). -/
theorem blk0_apply (c : Dev nD) (t : Fin cfg0.N) (y : S1x4096x512.Idx) (k : S8x4096x512.Idx)
    (h0 : (k 0).val = t.val) (h1 : (k 1).val = (y 1).val) (h2 : (k 2).val = (y 2).val) :
    (iblk m c 0 t : Vec Ideal S1x4096x512 .f32) y = (m ((c : Thread nD τ).loc main_arg0) : S8x4096x512.Idx → EReal) k := by
  obtain ⟨⟨e0, e1, e2⟩, -⟩ := idx_facts t
  have hy : (y 0).val < 1 := (y 0).isLt
  show V m c main_arg0 (((cfg0.win 0).blk t).view.emb y) = _
  rw [V_main_arg0]
  refine congrArg (m ((c : Thread nD τ).loc main_arg0) : S8x4096x512.Idx → EReal) (funext fun a => Fin.ext ?_)
  match a with
  | ⟨0, _⟩ => show win0_0.index t (0 : Fin 3) * 1 + 1 * (y 0).val = (k 0).val; omega
  | ⟨1, _⟩ => show win0_0.index t (1 : Fin 3) * 4096 + 1 * (y 1).val = (k 1).val; omega
  | ⟨2, _⟩ => show win0_0.index t (2 : Fin 3) * 512 + 1 * (y 2).val = (k 2).val; omega

/-- Block t of the first weights: entry (u, h, d) is the array's (t, h, d). -/
theorem blk1_apply (c : Dev nD) (t : Fin cfg0.N) (y : S1x1024x512.Idx) (k : S8x1024x512.Idx)
    (h0 : (k 0).val = t.val) (h1 : (k 1).val = (y 1).val) (h2 : (k 2).val = (y 2).val) :
    (iblk m c 1 t : Vec Ideal S1x1024x512 .f32) y = (m ((c : Thread nD τ).loc main_arg1) : S8x1024x512.Idx → EReal) k := by
  obtain ⟨-, ⟨e0, e1, e2⟩, -⟩ := idx_facts t
  have hy : (y 0).val < 1 := (y 0).isLt
  show V m c main_arg1 (((cfg0.win 1).blk t).view.emb y) = _
  rw [V_main_arg1]
  refine congrArg (m ((c : Thread nD τ).loc main_arg1) : S8x1024x512.Idx → EReal) (funext fun a => Fin.ext ?_)
  match a with
  | ⟨0, _⟩ => show win0_1.index t (0 : Fin 3) * 1 + 1 * (y 0).val = (k 0).val; omega
  | ⟨1, _⟩ => show win0_1.index t (1 : Fin 3) * 1024 + 1 * (y 1).val = (k 1).val; omega
  | ⟨2, _⟩ => show win0_1.index t (2 : Fin 3) * 512 + 1 * (y 2).val = (k 2).val; omega

/-- Block t of the first bias as re-laid: entry (u, u', h) is the argument's (t, h). -/
theorem blk2_apply (c : Dev nD) (t : Fin cfg0.N) (y : S1x1x1024.Idx) (k : S8x1024.Idx)
    (h0 : (k 0).val = t.val) (h1 : (k 1).val = (y 2).val) :
    (iblk m c 2 t : Vec Ideal S1x1x1024 .f32) y = (m ((c : Thread nD τ).loc main_arg2) : S8x1024.Idx → EReal) k := by
  obtain ⟨-, -, ⟨e0, e1, e2⟩, -⟩ := idx_facts t
  have hy : (y 0).val < 1 := (y 0).isLt
  show V m c main_v0 (((cfg0.win 2).blk t).view.emb y) = _
  rw [V_bias0]
  refine broadcastInDim_apply _ _ _ _ k fun a => ?_
  match a with
  | ⟨0, _⟩ =>
    show (k 0).val = if (8 : Nat) = 1 then 0 else win0_2.index t (0 : Fin 3) * 1 + 1 * (y 0).val
    rw [if_neg (by decide)]; omega
  | ⟨1, _⟩ =>
    show (k 1).val = if (1024 : Nat) = 1 then 0 else win0_2.index t (2 : Fin 3) * 1024 + 1 * (y 2).val
    rw [if_neg (by decide)]; omega

/-- Block t of the second weights: entry (u, g, h) is the array's (t, g, h). -/
theorem blk3_apply (c : Dev nD) (t : Fin cfg0.N) (y : S1x1024x1024.Idx) (k : S8x1024x1024.Idx)
    (h0 : (k 0).val = t.val) (h1 : (k 1).val = (y 1).val) (h2 : (k 2).val = (y 2).val) :
    (iblk m c 3 t : Vec Ideal S1x1024x1024 .f32) y = (m ((c : Thread nD τ).loc main_arg3) : S8x1024x1024.Idx → EReal) k := by
  obtain ⟨-, -, -, ⟨e0, e1, e2⟩, -⟩ := idx_facts t
  have hy : (y 0).val < 1 := (y 0).isLt
  show V m c main_arg3 (((cfg0.win 3).blk t).view.emb y) = _
  rw [V_main_arg3]
  refine congrArg (m ((c : Thread nD τ).loc main_arg3) : S8x1024x1024.Idx → EReal) (funext fun a => Fin.ext ?_)
  match a with
  | ⟨0, _⟩ => show win0_3.index t (0 : Fin 3) * 1 + 1 * (y 0).val = (k 0).val; omega
  | ⟨1, _⟩ => show win0_3.index t (1 : Fin 3) * 1024 + 1 * (y 1).val = (k 1).val; omega
  | ⟨2, _⟩ => show win0_3.index t (2 : Fin 3) * 1024 + 1 * (y 2).val = (k 2).val; omega

/-- Block t of the second bias as re-laid: entry (u, u', g) is the argument's (t, g). -/
theorem blk4_apply (c : Dev nD) (t : Fin cfg0.N) (y : S1x1x1024.Idx) (k : S8x1024.Idx)
    (h0 : (k 0).val = t.val) (h1 : (k 1).val = (y 2).val) :
    (iblk m c 4 t : Vec Ideal S1x1x1024 .f32) y = (m ((c : Thread nD τ).loc main_arg4) : S8x1024.Idx → EReal) k := by
  obtain ⟨-, -, -, -, ⟨e0, e1, e2⟩, -⟩ := idx_facts t
  have hy : (y 0).val < 1 := (y 0).isLt
  show V m c main_v1 (((cfg0.win 4).blk t).view.emb y) = _
  rw [V_bias1]
  refine broadcastInDim_apply _ _ _ _ k fun a => ?_
  match a with
  | ⟨0, _⟩ =>
    show (k 0).val = if (8 : Nat) = 1 then 0 else win0_4.index t (0 : Fin 3) * 1 + 1 * (y 0).val
    rw [if_neg (by decide)]; omega
  | ⟨1, _⟩ =>
    show (k 1).val = if (1024 : Nat) = 1 then 0 else win0_4.index t (2 : Fin 3) * 1024 + 1 * (y 2).val
    rw [if_neg (by decide)]; omega

/-- Block t of the third weights: entry (u, o, g) is the array's (t, o, g). -/
theorem blk5_apply (c : Dev nD) (t : Fin cfg0.N) (y : S1x512x1024.Idx) (k : S8x512x1024.Idx)
    (h0 : (k 0).val = t.val) (h1 : (k 1).val = (y 1).val) (h2 : (k 2).val = (y 2).val) :
    (iblk m c 5 t : Vec Ideal S1x512x1024 .f32) y = (m ((c : Thread nD τ).loc main_arg5) : S8x512x1024.Idx → EReal) k := by
  obtain ⟨-, -, -, -, -, ⟨e0, e1, e2⟩, -⟩ := idx_facts t
  have hy : (y 0).val < 1 := (y 0).isLt
  show V m c main_arg5 (((cfg0.win 5).blk t).view.emb y) = _
  rw [V_main_arg5]
  refine congrArg (m ((c : Thread nD τ).loc main_arg5) : S8x512x1024.Idx → EReal) (funext fun a => Fin.ext ?_)
  match a with
  | ⟨0, _⟩ => show win0_5.index t (0 : Fin 3) * 1 + 1 * (y 0).val = (k 0).val; omega
  | ⟨1, _⟩ => show win0_5.index t (1 : Fin 3) * 512 + 1 * (y 1).val = (k 1).val; omega
  | ⟨2, _⟩ => show win0_5.index t (2 : Fin 3) * 1024 + 1 * (y 2).val = (k 2).val; omega

/-- Block t of the third bias as re-laid: entry (u, u', o) is the argument's (t, o). -/
theorem blk6_apply (c : Dev nD) (t : Fin cfg0.N) (y : S1x1x512.Idx) (k : S8x512.Idx)
    (h0 : (k 0).val = t.val) (h1 : (k 1).val = (y 2).val) :
    (iblk m c 6 t : Vec Ideal S1x1x512 .f32) y = (m ((c : Thread nD τ).loc main_arg6) : S8x512.Idx → EReal) k := by
  obtain ⟨-, -, -, -, -, -, ⟨e0, e1, e2⟩, -⟩ := idx_facts t
  have hy : (y 0).val < 1 := (y 0).isLt
  show V m c main_v2 (((cfg0.win 6).blk t).view.emb y) = _
  rw [V_bias2]
  refine broadcastInDim_apply _ _ _ _ k fun a => ?_
  match a with
  | ⟨0, _⟩ =>
    show (k 0).val = if (8 : Nat) = 1 then 0 else win0_6.index t (0 : Fin 3) * 1 + 1 * (y 0).val
    rw [if_neg (by decide)]; omega
  | ⟨1, _⟩ =>
    show (k 1).val = if (512 : Nat) = 1 then 0 else win0_6.index t (2 : Fin 3) * 512 + 1 * (y 2).val
    rw [if_neg (by decide)]; omega

/-! ## From the blocks to the array -/

/-- The result array both programs are shown to end at: the perceptron of the arguments as launched. -/
abbrev result (c : Dev nD) : FVec Ideal S8x4096x512 .f32 :=
  Cert.Mlp.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is block `t` of the perceptron of the argument arrays. -/
theorem flushed_eq (c : Dev nD) (t : Fin cfg0.N) :
    (dats m 0 c).flushed 7 t = ((cfg0.win 7).blk t).view.read (Elt Ideal) (result m c) := by
  obtain ⟨-, -, -, -, -, -, -, ⟨e0, e1, e2⟩, ht⟩ := idx_facts t
  rw [Cert.KernelIdeal.Value.flushed7]
  funext j
  have hj : (j 0).val < 1 := (j 0).isLt
  show out0_7 (iblk m c 0 t) (iblk m c 1 t) (iblk m c 2 t) (iblk m c 3 t) (iblk m c 4 t) (iblk m c 5 t) (iblk m c 6 t)
      ((cfg0.win 7).xinj (grid0.coords t) j) = result m c (((cfg0.win 7).blk t).view.emb j)
  refine (out_eq _ _ _ _ _ _ _ _).trans ?_
  refine (blockOut_of_reads _ _ _ _ _ _ _ (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) ⟨t.val, ht⟩
    (fun s d => blk0_apply m c t _ _ rfl rfl rfl) (fun h d => blk1_apply m c t _ _ rfl rfl rfl)
    (fun h => blk2_apply m c t _ _ rfl rfl) (fun g h => blk3_apply m c t _ _ rfl rfl rfl)
    (fun g => blk4_apply m c t _ _ rfl rfl) (fun o g => blk5_apply m c t _ _ rfl rfl rfl)
    (fun o => blk6_apply m c t _ _ rfl rfl) _).trans ?_
  show Cert.Mlp.out _ _ _ _ _ _ _ _ _ _ = Cert.Mlp.out _ _ _ _ _ _ _ _ _ _
  have k0 : (⟨t.val, ht⟩ : Fin 8) = (((cfg0.win 7).blk t).view.emb j) 0 :=
    Fin.ext (by show t.val = win0_7.index t (0 : Fin 3) * 1 + 1 * (j 0).val; omega)
  have k1 : (⟨(((cfg0.win 7).xinj (grid0.coords t) j) 1).val, (((cfg0.win 7).xinj (grid0.coords t) j) 1).isLt⟩ : Fin 4096)
      = (((cfg0.win 7).blk t).view.emb j) 1 :=
    Fin.ext (by show (j 1).val = win0_7.index t (1 : Fin 3) * 4096 + 1 * (j 1).val; omega)
  have k2 : (⟨(((cfg0.win 7).xinj (grid0.coords t) j) 2).val, (((cfg0.win 7).xinj (grid0.coords t) j) 2).isLt⟩ : Fin 512)
      = (((cfg0.win 7).blk t).view.emb j) 2 :=
    Fin.ext (by show (j 2).val = win0_7.index t (2 : Fin 3) * 512 + 1 * (j 2).val; omega)
  rw [k0, k1, k2]

/-- An index of the result array is in point `t`'s block iff each coordinate is in the block's range on its axis. -/
theorem mem_blk (t : Fin cfg0.N) (i : S8x4096x512.Idx) :
    i ∈ ((cfg0.win 7).blk t).view.set ↔ ∀ a : Fin 3, win0_7.index t a * S1x4096x512.size a ≤ (i a).val
      ∧ (i a).val < win0_7.index t a * S1x4096x512.size a + S1x4096x512.size a := by
  show i ∈ ((View.whole main_v3).slice (win0_7.rect t)).set ↔ _
  rw [View.set_slice_whole, Rect.mem_set_unit]
  exact Iff.rfl

/-- The eight blocks cover the result array: entry (b, s, o) lies in the block of point b. -/
theorem cover (i : S8x4096x512.Idx) : ∃ t : Fin cfg0.N, (cfg0.win 7).flush t = true ∧ i ∈ ((cfg0.win 7).blk t).view.set := by
  have hi0 : (i 0).val < 8 := (i 0).isLt
  have hi1 : (i 1).val < 4096 := (i 1).isLt
  have hi2 : (i 2).val < 512 := (i 2).isLt
  have hN : cfg0.N = 8 := N_0
  let t : Fin cfg0.N := ⟨(i 0).val, by rw [hN]; exact hi0⟩
  obtain ⟨-, -, -, -, -, -, -, ⟨e0, e1, e2⟩, -⟩ := idx_facts t
  have ht : t.val = (i 0).val := rfl
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 4096 ≤ (i 1).val ∧ (i 1).val < win0_7.index t (1 : Fin 3) * 4096 + 4096; omega
  | ⟨2, _⟩ => show win0_7.index t (2 : Fin 3) * 512 ≤ (i 2).val ∧ (i 2).val < win0_7.index t (2 : Fin 3) * 512 + 512; omega

/-- So the result array ends holding the perceptron of the arguments. -/
theorem final (c : Dev nD) : (dats m 0 c).arrAt 7 cfg0.N = result m c :=
  (dats m 0 c).arrAt_eq_of_cover 7 (result m c) (fun t _ => flushed_eq m c t) cover

/-- The kernel's run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference's result is the perceptron `Cert.Mlp.G` of its arguments, entry by entry.

  The reference is three batched products `bsd,bhd->bsh` (batch axis 0 of both operands, the last axis of both
  contracted), each followed by the addition of the bias broadcast [8, n] to [8, 1, n] to [8, 4096, n], the first two
  also by the maximum with the zero constant. Read at (b, s, ·), stage by stage, from the generated readings of each
  operation: a product is the sum over the contracted coordinate, a broadcast reads its operand at the index with the
  repeated axis dropped, and the zero word is the number zero.
-/
import proofs.«147190_g64166811402842_feedfinal_112_26_alg».proof.Proof.Gen.ReferenceIdeal.Read
import proofs.«147190_g64166811402842_feedfinal_112_26_alg».proof.Proof.MlpSpec
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## Where each operation reads its operands -/

theorem lidx0 (b : Fin 8) (s : Fin 4096) (h : Fin 1024) (k : Fin 512) : lidx_main_v0 (ix3 b s h) k = ix3 b s k :=
  funext fun a => match a with | ⟨0, _⟩ => rfl | ⟨1, _⟩ => rfl | ⟨2, _⟩ => rfl
theorem ridx0 (b : Fin 8) (s : Fin 4096) (h : Fin 1024) (k : Fin 512) : ridx_main_v0 (ix3 b s h) k = ix3 b h k :=
  funext fun a => match a with | ⟨0, _⟩ => rfl | ⟨1, _⟩ => rfl | ⟨2, _⟩ => rfl
theorem idx2 (b : Fin 8) (s : Fin 4096) (h : Fin 1024) : idx_main_v2 (ix3 b s h) = ix3 b (0 : Fin 1) h :=
  funext fun a => match a with | ⟨0, _⟩ => rfl | ⟨1, _⟩ => rfl | ⟨2, _⟩ => rfl
theorem idx1 (b : Fin 8) (u : Fin 1) (h : Fin 1024) : idx_main_v1 (ix3 b u h) = ix2 b h :=
  funext fun a => match a with | ⟨0, _⟩ => rfl | ⟨1, _⟩ => rfl

theorem lidx5 (b : Fin 8) (s : Fin 4096) (g : Fin 1024) (k : Fin 1024) : lidx_main_v5 (ix3 b s g) k = ix3 b s k :=
  funext fun a => match a with | ⟨0, _⟩ => rfl | ⟨1, _⟩ => rfl | ⟨2, _⟩ => rfl
theorem ridx5 (b : Fin 8) (s : Fin 4096) (g : Fin 1024) (k : Fin 1024) : ridx_main_v5 (ix3 b s g) k = ix3 b g k :=
  funext fun a => match a with | ⟨0, _⟩ => rfl | ⟨1, _⟩ => rfl | ⟨2, _⟩ => rfl
theorem idx7 (b : Fin 8) (s : Fin 4096) (g : Fin 1024) : idx_main_v7 (ix3 b s g) = ix3 b (0 : Fin 1) g :=
  funext fun a => match a with | ⟨0, _⟩ => rfl | ⟨1, _⟩ => rfl | ⟨2, _⟩ => rfl
theorem idx6 (b : Fin 8) (u : Fin 1) (g : Fin 1024) : idx_main_v6 (ix3 b u g) = ix2 b g :=
  funext fun a => match a with | ⟨0, _⟩ => rfl | ⟨1, _⟩ => rfl

theorem lidx10 (b : Fin 8) (s : Fin 4096) (o : Fin 512) (k : Fin 1024) : lidx_main_v10 (ix3 b s o) k = ix3 b s k :=
  funext fun a => match a with | ⟨0, _⟩ => rfl | ⟨1, _⟩ => rfl | ⟨2, _⟩ => rfl
theorem ridx10 (b : Fin 8) (s : Fin 4096) (o : Fin 512) (k : Fin 1024) : ridx_main_v10 (ix3 b s o) k = ix3 b o k :=
  funext fun a => match a with | ⟨0, _⟩ => rfl | ⟨1, _⟩ => rfl | ⟨2, _⟩ => rfl
theorem idx12 (b : Fin 8) (s : Fin 4096) (o : Fin 512) : idx_main_v12 (ix3 b s o) = ix3 b (0 : Fin 1) o :=
  funext fun a => match a with | ⟨0, _⟩ => rfl | ⟨1, _⟩ => rfl | ⟨2, _⟩ => rfl
theorem idx11 (b : Fin 8) (u : Fin 1) (o : Fin 512) : idx_main_v11 (ix3 b u o) = ix2 b o :=
  funext fun a => match a with | ⟨0, _⟩ => rfl | ⟨1, _⟩ => rfl

/-! ## The three layers -/

/-- The first hidden layer at (b, s, h): relu of the row's product with row h of the batch's first weights plus the bias. -/
theorem hidden1_at (x0 : FVec Ideal S8x4096x512 .f32) (x1 : FVec Ideal S8x1024x512 .f32) (x2 : FVec Ideal S8x1024 .f32)
    (b : Fin 8) (s : Fin 4096) (h : Fin 1024) :
    val_main_v4 (F := Ideal) x0 x1 x2 (ix3 b s h)
      = max ((∑ d : Fin 512, x0 (ix3 b s d) * x1 (ix3 b h d)) + x2 (ix2 b h)) 0 := by
  rw [val_main_v4_apply, val_main_v3_apply, val_main_v0_apply, val_main_v2_apply, val_main_v1_apply,
    val_main_call0_v0_apply, val_main_call0_cst_apply]
  simp only [lidx0, ridx0, idx2, idx1, Ideal.ofBits_def, Ideal.ofBits_zero_f32]
  rfl

/-- The second hidden layer at (b, s, g). -/
theorem hidden2_at (x0 : FVec Ideal S8x4096x512 .f32) (x1 : FVec Ideal S8x1024x512 .f32) (x2 : FVec Ideal S8x1024 .f32)
    (x3 : FVec Ideal S8x1024x1024 .f32) (x4 : FVec Ideal S8x1024 .f32) (b : Fin 8) (s : Fin 4096) (g : Fin 1024) :
    val_main_v9 (F := Ideal) x0 x1 x2 x3 x4 (ix3 b s g)
      = max ((∑ h : Fin 1024, max ((∑ d : Fin 512, x0 (ix3 b s d) * x1 (ix3 b h d)) + x2 (ix2 b h)) 0 * x3 (ix3 b g h))
          + x4 (ix2 b g)) 0 := by
  rw [val_main_v9_apply, val_main_v8_apply, val_main_v5_apply, val_main_v7_apply, val_main_v6_apply,
    val_main_call1_v0_apply, val_main_call1_cst_apply]
  simp only [lidx5, ridx5, idx7, idx6, hidden1_at, Ideal.ofBits_def, Ideal.ofBits_zero_f32]
  rfl

/-- The reference's result array is `Cert.Mlp.G` of its seven arguments. -/
theorem result_eq (x0 : FVec Ideal S8x4096x512 .f32) (x1 : FVec Ideal S8x1024x512 .f32) (x2 : FVec Ideal S8x1024 .f32)
    (x3 : FVec Ideal S8x1024x1024 .f32) (x4 : FVec Ideal S8x1024 .f32) (x5 : FVec Ideal S8x512x1024 .f32)
    (x6 : FVec Ideal S8x512 .f32) :
    val_main_v13 (F := Ideal) x0 x1 x2 x3 x4 x5 x6 = Cert.Mlp.G x0 x1 x2 x3 x4 x5 x6 := by
  funext i
  obtain ⟨b, s, o, rfl⟩ : ∃ (b : Fin 8) (s : Fin 4096) (o : Fin 512), i = ix3 b s o := ⟨i 0, i 1, i 2, eq_ix3 i⟩
  rw [Cert.Mlp.G_ix3, val_main_v13_apply, val_main_v10_apply, val_main_v12_apply, val_main_v11_apply]
  simp only [lidx10, ridx10, idx12, idx11, hidden2_at]
  rfl

end Cert.ReferenceIdeal.RefValue

end
-- ==== Proof.lean ====
/-
  A three-layer perceptron with per-batch weights, as one pipelined kernel against three batched products.

  For every batch b, row s and output column o both programs compute, on the extended reals,

      Σ_g relu( Σ_h relu( Σ_d q[b,s,d]·W0[b,h,d] + b0[b,h] )·W1[b,g,h] + b1[b,g] )·W2[b,o,g] + b2[b,o],   relu z = max z 0

  (`Cert.Mlp.G`, Proof/MlpSpec.lean). The kernel takes one batch per grid point, transposes the batch's weights once and
  sends the 4096 rows through the three layers in four chunks of 1024 rows; its changes of float format are the identity
  at the exact reading, a product into a zero accumulator is the plain sum over the contracted coordinate, and a
  transposed weight read at (in, out) is the stored one at (out, in) (Proof/ChunkValue.lean, Proof/KernelValue.lean).
  The reference contracts the last axes of activations and weights directly (Proof/RefValue.lean). The two sides are the
  same expression sum by sum, so no law of arithmetic is needed and the finiteness of the inputs is never used. The
  idealized kernel is the printed one read at the exact values, so there is nothing to preserve; the three programs'
  runs, with the arguments unchanged, are the generated frames and the generated reference run.
-/
import proofs.«147190_g64166811402842_feedfinal_112_26_alg».proof.Defs
import proofs.«147190_g64166811402842_feedfinal_112_26_alg».proof.Proof.Gen.Kernel
import proofs.«147190_g64166811402842_feedfinal_112_26_alg».proof.Proof.Gen.Kernel.Skeleton
import proofs.«147190_g64166811402842_feedfinal_112_26_alg».proof.Proof.Gen.Kernel.Launch
import proofs.«147190_g64166811402842_feedfinal_112_26_alg».proof.Proof.Gen.Kernel.Points
import proofs.«147190_g64166811402842_feedfinal_112_26_alg».proof.Proof.Gen.Kernel.Frame
import proofs.«147190_g64166811402842_feedfinal_112_26_alg».proof.Proof.Gen.KernelIdeal
import proofs.«147190_g64166811402842_feedfinal_112_26_alg».proof.Proof.Gen.KernelIdeal.Skeleton
import proofs.«147190_g64166811402842_feedfinal_112_26_alg».proof.Proof.Gen.KernelIdeal.Launch
import proofs.«147190_g64166811402842_feedfinal_112_26_alg».proof.Proof.Gen.KernelIdeal.Points
import proofs.«147190_g64166811402842_feedfinal_112_26_alg».proof.Proof.Gen.KernelIdeal.Frame
import proofs.«147190_g64166811402842_feedfinal_112_26_alg».proof.Proof.Gen.ReferenceIdeal
import proofs.«147190_g64166811402842_feedfinal_112_26_alg».proof.Proof.Gen.Pre_finite_inputs
import proofs.«147190_g64166811402842_feedfinal_112_26_alg».proof.Proof.Gen.KernelIdeal.Value
import proofs.«147190_g64166811402842_feedfinal_112_26_alg».proof.Proof.Gen.ReferenceIdeal.Run
import proofs.«147190_g64166811402842_feedfinal_112_26_alg».proof.Proof.Gen.ReferenceIdeal.Read
import proofs.«147190_g64166811402842_feedfinal_112_26_alg».proof.Proof.KernelValue
import proofs.«147190_g64166811402842_feedfinal_112_26_alg».proof.Proof.RefValue
import Idealize.ShloMosaic.Adequacy
import Idealize.ShloMosaic.Init

noncomputable section

namespace Cert.Proof

open Idealize.ShloMosaic Idealize.SL.Sem

/-- The printed kernel runs and leaves its arguments as they were. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the exact reading. -/
theorem preserves : Cert.preserves_Kernel_KernelIdeal := trivial

/-- From memories agreeing on the arguments, the kernel's result array ends at the perceptron of its arguments
    (`Cert.KernelIdeal.Whole.run`) and the reference's at the perceptron of its own (`RefValue.result_eq`): one array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v13_eq, Cert.ReferenceIdeal.RefValue.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
